-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x16 : Shape := ⟨3, ![2048, 4, 16]⟩
abbrev S_ : Shape := ⟨0, ![]⟩

class Facts : Prop where
  bcast_S_S2048x4x16 : S_.BroadcastsInDim S2048x4x16 (![] : Fin 0 → Fin S2048x4x16.rank)
  reducesTo_S2048x4x16_S_d0_1_2 : S2048x4x16.ReducesTo [0, 1, 2] S_
  h_S_ : 0 < S_.numel

variable [Facts]

def fn {F : FTy → Type} [FloatOps F] (main_arg0 : FVec F S2048x4x16 .f32) (main_arg1 : FVec F S2048x4x16 .f32) : IVec S_ 1 :=
  let main_v0 : FVec F S2048x4x16 .f32 := Host.absf main_arg0
  let main_cst : FVec F S_ .f32 := constant S_ .f32 0x7F800000#32
  let main_v1 : FVec F S2048x4x16 .f32 := broadcastInDim S2048x4x16 ![] bcast_S_S2048x4x16 main_cst
  let main_v2 : IVec S2048x4x16 1 := cmpf .olt main_v0 main_v1
  let main_c : IVec S_ 1 := constantI S_ 1 1#1
  let main_v3 : IVec S_ 1 := (fun x v => Host.reduce IntOp.andi x v reducesTo_S2048x4x16_S_d0_1_2 h_S_) main_v2 main_c
  let main_v4 : FVec F S2048x4x16 .f32 := Host.absf main_arg1
  let main_cst_0 : FVec F S_ .f32 := constant S_ .f32 0x7F800000#32
  let main_v5 : FVec F S2048x4x16 .f32 := broadcastInDim S2048x4x16 ![] bcast_S_S2048x4x16 main_cst_0
  let main_v6 : IVec S2048x4x16 1 := cmpf .olt main_v4 main_v5
  let main_c_1 : IVec S_ 1 := constantI S_ 1 1#1
  let main_v7 : IVec S_ 1 := (fun x v => Host.reduce IntOp.andi x v reducesTo_S2048x4x16_S_d0_1_2 h_S_) main_v6 main_c_1
  let main_v8 : IVec S_ 1 := andi main_v3 main_v7
  main_v8
-- ==== Kernel.lean ====
abbrev S2048x4x16 : Shape := ⟨3, ![2048, 4, 16]⟩
abbrev S2048x1x16 : Shape := ⟨3, ![2048, 1, 16]⟩
abbrev S2048x16 : Shape := ⟨2, ![2048, 16]⟩
abbrev S2048x16x1 : Shape := ⟨3, ![2048, 16, 1]⟩
abbrev S2048x16x16 : Shape := ⟨3, ![2048, 16, 16]⟩
abbrev S2048x256 : Shape := ⟨2, ![2048, 256]⟩
abbrev S2048x256x256 : Shape := ⟨3, ![2048, 256, 256]⟩
abbrev S32x256 : Shape := ⟨2, ![32, 256]⟩
abbrev S32x256x256 : Shape := ⟨3, ![32, 256, 256]⟩
abbrev S32x256x1 : Shape := ⟨3, ![32, 256, 1]⟩
abbrev S32x1x256 : Shape := ⟨3, ![32, 1, 256]⟩
abbrev S2048x16x16x16x16 : Shape := ⟨5, ![2048, 16, 16, 16, 16]⟩

abbrev nBuf : Space → Nat
  | .hbm => 25
  | .vmem => 6
  | .smem => 0
  | _ => 0

abbrev bufTy : (tb : Table) → Fin (tcTables nBuf tb) → BufTy
  | .hbm, ⟨0, _⟩ => ⟨S2048x4x16, .f32⟩
  | .hbm, ⟨1, _⟩ => ⟨S2048x4x16, .f32⟩
  | .hbm, ⟨2, _⟩ => ⟨S2048x4x16, .f32⟩
  | .hbm, ⟨3, _⟩ => ⟨S2048x1x16, .f32⟩
  | .hbm, ⟨4, _⟩ => ⟨S2048x16, .f32⟩
  | .hbm, ⟨5, _⟩ => ⟨S2048x1x16, .f32⟩
  | .hbm, ⟨6, _⟩ => ⟨S2048x16, .f32⟩
  | .hbm, ⟨7, _⟩ => ⟨S2048x1x16, .f32⟩
  | .hbm, ⟨8, _⟩ => ⟨S2048x16, .f32⟩
  | .hbm, ⟨9, _⟩ => ⟨S2048x1x16, .f32⟩
  | .hbm, ⟨10, _⟩ => ⟨S2048x16, .f32⟩
  | .hbm, ⟨11, _⟩ => ⟨S2048x16x1, .f32⟩
  | .hbm, ⟨12, _⟩ => ⟨S2048x1x16, .f32⟩
  | .hbm, ⟨13, _⟩ => ⟨S2048x16x16, .f32⟩
  | .hbm, ⟨14, _⟩ => ⟨S2048x16x16, .f32⟩
  | .hbm, ⟨15, _⟩ => ⟨S2048x16x16, .f32⟩
  | .hbm, ⟨16, _⟩ => ⟨S2048x256, .f32⟩
  | .hbm, ⟨17, _⟩ => ⟨S2048x16x1, .f32⟩
  | .hbm, ⟨18, _⟩ => ⟨S2048x1x16, .f32⟩
  | .hbm, ⟨19, _⟩ => ⟨S2048x16x16, .f32⟩
  | .hbm, ⟨20, _⟩ => ⟨S2048x16x16, .f32⟩
  | .hbm, ⟨21, _⟩ => ⟨S2048x16x16, .f32⟩
  | .hbm, ⟨22, _⟩ => ⟨S2048x256, .f32⟩
  | .hbm, ⟨23, _⟩ => ⟨S2048x256x256, .f32⟩
  | .hbm, ⟨24, _⟩ => ⟨S2048x16x16x16x16, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256x256, .f32⟩
  | .local _ .vmem, ⟨5, _⟩ => ⟨S32x256x256, .f32⟩
  | _, _ => ⟨S2048x4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2048x4x16_S2048x1x16_0_0_0 : S2048x4x16.Slices ![0, 0, 0] S2048x1x16
  shapeCasts_S2048x1x16_S2048x16 : S2048x1x16.ShapeCasts S2048x16
  slices_S2048x4x16_S2048x1x16_0_1_0 : S2048x4x16.Slices ![0, 1, 0] S2048x1x16
  slices_S2048x4x16_S2048x1x16_0_2_0 : S2048x4x16.Slices ![0, 2, 0] S2048x1x16
  slices_S2048x4x16_S2048x1x16_0_3_0 : S2048x4x16.Slices ![0, 3, 0] S2048x1x16
  bcast_S2048x16_S2048x16x1_0_1 : S2048x16.BroadcastsInDim S2048x16x1 (![0, 1] : Fin 2 → Fin S2048x16x1.rank)
  bcast_S2048x16_S2048x1x16_0_2 : S2048x16.BroadcastsInDim S2048x1x16 (![0, 2] : Fin 2 → Fin S2048x1x16.rank)
  bcast_S2048x16x1_S2048x16x16_0_1_2 : S2048x16x1.BroadcastsInDim S2048x16x16 (![0, 1, 2] : Fin 3 → Fin S2048x16x16.rank)
  bcast_S2048x1x16_S2048x16x16_0_1_2 : S2048x1x16.BroadcastsInDim S2048x16x16 (![0, 1, 2] : Fin 3 → Fin S2048x16x16.rank)
  shapeCasts_S2048x16x16_S2048x256 : S2048x16x16.ShapeCasts S2048x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  inb_S32x256x256_S32x256x256_0_0_0 : ∀ a, (![0, 0, 0] : Fin 3 → Nat) a + S32x256x256.size a ≤ S32x256x256.size a
  h_S32x256x256 : 0 < S32x256x256.numel
  shapeCasts_S2048x256x256_S2048x16x16x16x16 : S2048x256x256.ShapeCasts S2048x16x16x16x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S2048x256.size a
  hwx0_0 : ∀ i : grid0.Coords, EltTy.bits .f32 = 32 ∨ (Rect.block (s := S2048x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S2048x256.size a
  hwx0_1 : ∀ i : grid0.Coords, EltTy.bits .f32 = 32 ∨ (Rect.block (s := S2048x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x256.size a ≤ S2048x256x256.size a
  hwx0_2 : ∀ i : grid0.Coords, EltTy.bits .f32 = 32 ∨ (Rect.block (s := S2048x256x256) S32x256x256.size (cc0_transform_2 i) (hinb0_2 i)).WholeWords (EltTy.packing .f32)

variable [Facts₀]

abbrev win0_0 : Pipeline.Window sig grid0 :=
  Pipeline.Window.ofSpec (Memref.whole main_v14) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S32x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x4x16 : Shape := ⟨3, ![2048, 4, 16]⟩
abbrev S2048x1x16 : Shape := ⟨3, ![2048, 1, 16]⟩
abbrev S2048x16 : Shape := ⟨2, ![2048, 16]⟩
abbrev S2048x16x1 : Shape := ⟨3, ![2048, 16, 1]⟩
abbrev S2048x16x16 : Shape := ⟨3, ![2048, 16, 16]⟩
abbrev S2048x256 : Shape := ⟨2, ![2048, 256]⟩
abbrev S2048x256x1 : Shape := ⟨3, ![2048, 256, 1]⟩
abbrev S2048x256x16 : Shape := ⟨3, ![2048, 256, 16]⟩
abbrev S2048x4096 : Shape := ⟨2, ![2048, 4096]⟩
abbrev S2048x4096x1 : Shape := ⟨3, ![2048, 4096, 1]⟩
abbrev S2048x4096x16 : Shape := ⟨3, ![2048, 4096, 16]⟩
abbrev S2048x65536 : Shape := ⟨2, ![2048, 65536]⟩
abbrev S2048x16x16x16x16 : Shape := ⟨5, ![2048, 16, 16, 16, 16]⟩

abbrev nBuf : Space → Nat
  | .hbm => 30
  | .vmem => 0
  | .smem => 0
  | _ => 0

abbrev bufTy : (tb : Table) → Fin (tcTables nBuf tb) → BufTy
  | .hbm, ⟨0, _⟩ => ⟨S2048x4x16, .f32⟩
  | .hbm, ⟨1, _⟩ => ⟨S2048x4x16, .f32⟩
  | .hbm, ⟨2, _⟩ => ⟨S2048x4x16, .f32⟩
  | .hbm, ⟨3, _⟩ => ⟨S2048x1x16, .f32⟩
  | .hbm, ⟨4, _⟩ => ⟨S2048x16, .f32⟩
  | .hbm, ⟨5, _⟩ => ⟨S2048x16x1, .f32⟩
  | .hbm, ⟨6, _⟩ => ⟨S2048x1x16, .f32⟩
  | .hbm, ⟨7, _⟩ => ⟨S2048x16, .f32⟩
  | .hbm, ⟨8, _⟩ => ⟨S2048x1x16, .f32⟩
  | .hbm, ⟨9, _⟩ => ⟨S2048x16x16, .f32⟩
  | .hbm, ⟨10, _⟩ => ⟨S2048x16x16, .f32⟩
  | .hbm, ⟨11, _⟩ => ⟨S2048x16x16, .f32⟩
  | .hbm, ⟨12, _⟩ => ⟨S2048x256, .f32⟩
  | .hbm, ⟨13, _⟩ => ⟨S2048x256x1, .f32⟩
  | .hbm, ⟨14, _⟩ => ⟨S2048x1x16, .f32⟩
  | .hbm, ⟨15, _⟩ => ⟨S2048x16, .f32⟩
  | .hbm, ⟨16, _⟩ => ⟨S2048x1x16, .f32⟩
  | .hbm, ⟨17, _⟩ => ⟨S2048x256x16, .f32⟩
  | .hbm, ⟨18, _⟩ => ⟨S2048x256x16, .f32⟩
  | .hbm, ⟨19, _⟩ => ⟨S2048x256x16, .f32⟩
  | .hbm, ⟨20, _⟩ => ⟨S2048x4096, .f32⟩
  | .hbm, ⟨21, _⟩ => ⟨S2048x4096x1, .f32⟩
  | .hbm, ⟨22, _⟩ => ⟨S2048x1x16, .f32⟩
  | .hbm, ⟨23, _⟩ => ⟨S2048x16, .f32⟩
  | .hbm, ⟨24, _⟩ => ⟨S2048x1x16, .f32⟩
  | .hbm, ⟨25, _⟩ => ⟨S2048x4096x16, .f32⟩
  | .hbm, ⟨26, _⟩ => ⟨S2048x4096x16, .f32⟩
  | .hbm, ⟨27, _⟩ => ⟨S2048x4096x16, .f32⟩
  | .hbm, ⟨28, _⟩ => ⟨S2048x65536, .f32⟩
  | .hbm, ⟨29, _⟩ => ⟨S2048x16x16x16x16, .f32⟩
  | _, _ => ⟨S2048x4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩

abbrev nD : Nat := 1
abbrev τ : Topo := Topo.v7x

variable {F : FTy → Type} [FloatOps F]

class Facts₀ : Prop where
  slices_S2048x4x16_S2048x1x16_0_0_0 : S2048x4x16.Slices ![0, 0, 0] S2048x1x16
  shapeCasts_S2048x1x16_S2048x16 : S2048x1x16.ShapeCasts S2048x16
  bcast_S2048x16_S2048x16x1_0_1 : S2048x16.BroadcastsInDim S2048x16x1 (![0, 1] : Fin 2 → Fin S2048x16x1.rank)
  slices_S2048x4x16_S2048x1x16_0_1_0 : S2048x4x16.Slices ![0, 1, 0] S2048x1x16
  bcast_S2048x16_S2048x1x16_0_2 : S2048x16.BroadcastsInDim S2048x1x16 (![0, 2] : Fin 2 → Fin S2048x1x16.rank)
  bcast_S2048x16x1_S2048x16x16_0_1_2 : S2048x16x1.BroadcastsInDim S2048x16x16 (![0, 1, 2] : Fin 3 → Fin S2048x16x16.rank)
  bcast_S2048x1x16_S2048x16x16_0_1_2 : S2048x1x16.BroadcastsInDim S2048x16x16 (![0, 1, 2] : Fin 3 → Fin S2048x16x16.rank)
  shapeCasts_S2048x16x16_S2048x256 : S2048x16x16.ShapeCasts S2048x256
  bcast_S2048x256_S2048x256x1_0_1 : S2048x256.BroadcastsInDim S2048x256x1 (![0, 1] : Fin 2 → Fin S2048x256x1.rank)
  slices_S2048x4x16_S2048x1x16_0_2_0 : S2048x4x16.Slices ![0, 2, 0] S2048x1x16
  bcast_S2048x256x1_S2048x256x16_0_1_2 : S2048x256x1.BroadcastsInDim S2048x256x16 (![0, 1, 2] : Fin 3 → Fin S2048x256x16.rank)
  bcast_S2048x1x16_S2048x256x16_0_1_2 : S2048x1x16.BroadcastsInDim S2048x256x16 (![0, 1, 2] : Fin 3 → Fin S2048x256x16.rank)
  shapeCasts_S2048x256x16_S2048x4096 : S2048x256x16.ShapeCasts S2048x4096
  bcast_S2048x4096_S2048x4096x1_0_1 : S2048x4096.BroadcastsInDim S2048x4096x1 (![0, 1] : Fin 2 → Fin S2048x4096x1.rank)
  slices_S2048x4x16_S2048x1x16_0_3_0 : S2048x4x16.Slices ![0, 3, 0] S2048x1x16
  bcast_S2048x4096x1_S2048x4096x16_0_1_2 : S2048x4096x1.BroadcastsInDim S2048x4096x16 (![0, 1, 2] : Fin 3 → Fin S2048x4096x16.rank)
  bcast_S2048x1x16_S2048x4096x16_0_1_2 : S2048x1x16.BroadcastsInDim S2048x4096x16 (![0, 1, 2] : Fin 3 → Fin S2048x4096x16.rank)
  shapeCasts_S2048x4096x16_S2048x65536 : S2048x4096x16.ShapeCasts S2048x65536
  shapeCasts_S2048x65536_S2048x16x16x16x16 : S2048x65536.ShapeCasts S2048x16x16x16x16

variable [Facts₀]

class Facts : Prop extends Facts₀ where

variable [Facts]
-- ==== Proof.OuterLayout.lean ====
/-
  The layout arithmetic of a four-fold outer product, one element at a time.

  With `tb = tensor + bias` of shape [2048, 4, 16], every program here builds, for a channel `c`, products of entries of the
  four rows `tb[c, 0, ·] … tb[c, 3, ·]` and flattens pairs of 16-long axes row-major: the pair `(a, b)` of coordinates sits
  at the flat position `a * 16 + b`. This module reads each such step at an index:
  * a row of the [2048, 4, 16] array taken by a slice and a reshape (`slice_row`);
  * the outer product of a [2048, A] and a [2048, B] array flattened to [2048, A * B] (`outer_pair`): position
    `a * B + b` holds `u[c, a] * v[c, b]`;
  * the product of a [32, 256] block broadcast along a new last axis with another broadcast along a new middle axis
    (`bcast_outer`): entry `(r, p, q)` is `x[r, p] * y[r, q]`;
  * a [2048, 256, 256] array viewed as [2048, 16, 16, 16, 16] (`unflatten`): entry `(c, l0, l1, l2, l3)` is the entry
    `(c, l0 * 16 + l1, l2 * 16 + l3)`; and a [2048, 65536] array viewed the same way (`unflatten_flat`): the entry
    `(c, ((l0 * 16 + l1) * 16 + l2) * 16 + l3)`.
  All at the exact (extended-real) instance; the shapes are literal and each operation's shape fact is a hypothesis.
-/
import Idealize.ShloMosaic.PureOps.Ideal
import Idealize.ShloMosaic.Lib.ValueIdx
import Idealize.ShloMosaic.Lib.Pipeline.Value
import Mathlib.Tactic.Ring

noncomputable section

namespace Cert.OuterLayout

open Idealize.ShloMosaic Idealize.ShloMosaic.ValueIdx

/-- Row `n` of a [2048, 4, 16] array, cut out as a [2048, 1, 16] slice and viewed as [2048, 16]: entry `(c, l)` is the
    array's entry `(c, n, l)`. -/
theorem slice_row {α : Type} (y : (⟨3, ![2048, 4, 16]⟩ : Shape).Idx → α) (n : Nat) (hn : n < 4)
    (hs : (⟨3, ![2048, 4, 16]⟩ : Shape).Slices ![0, n, 0] ⟨3, ![2048, 1, 16]⟩)
    (hc : (⟨3, ![2048, 1, 16]⟩ : Shape).ShapeCasts ⟨2, ![2048, 16]⟩) (c : Fin 2048) (l : Fin 16) :
    shapeCast ⟨2, ![2048, 16]⟩ (extractStridedSlice ⟨3, ![2048, 1, 16]⟩ ![0, n, 0] y hs) hc (ix2 c l)
      = y (ix3 c ⟨n, hn⟩ l) := by
  refine (shapeCast_apply _ hc (ix2 c l) (ix3 c ⟨0, Nat.one_pos⟩ l) ?_).trans ?_
  · rw [Shape.rowMajor_val_three, Shape.rowMajor_val_two]
    show (c.val * 1 + 0) * 16 + l.val = c.val * 16 + l.val
    omega
  · exact extractStridedSlice_apply _ y hs _ _ (fun a => match a with
      | ⟨0, _⟩ => by show c.val = 0 + c.val; omega
      | ⟨1, _⟩ => by show n = n + 0; omega
      | ⟨2, _⟩ => by show l.val = 0 + l.val; omega)

/-- The outer product of a [2048, A] array and a [2048, B] array along their second axes, flattened row-major to
    [2048, N] with `N = A * B`: the flat position `a * B + b` of channel `c` holds `u[c, a] * v[c, b]`. (Neither extent is 1,
    so neither operand is stretched along its own axis.) -/
theorem outer_pair {A B N : Nat} (hA : A ≠ 1) (hB : B ≠ 1) (hN : N = A * B)
    (u : FVec Ideal ⟨2, ![2048, A]⟩ .f32) (v : FVec Ideal ⟨2, ![2048, B]⟩ .f32)
    (h1 : (⟨2, ![2048, A]⟩ : Shape).BroadcastsInDim ⟨3, ![2048, A, 1]⟩ (![0, 1] : Fin 2 → Fin 3))
    (h2 : (⟨2, ![2048, B]⟩ : Shape).BroadcastsInDim ⟨3, ![2048, 1, B]⟩ (![0, 2] : Fin 2 → Fin 3))
    (h3 : (⟨3, ![2048, A, 1]⟩ : Shape).BroadcastsInDim ⟨3, ![2048, A, B]⟩ (![0, 1, 2] : Fin 3 → Fin 3))
    (h4 : (⟨3, ![2048, 1, B]⟩ : Shape).BroadcastsInDim ⟨3, ![2048, A, B]⟩ (![0, 1, 2] : Fin 3 → Fin 3))
    (hc : (⟨3, ![2048, A, B]⟩ : Shape).ShapeCasts ⟨2, ![2048, N]⟩)
    (c : Fin 2048) (a : Fin A) (b : Fin B) (p : Fin N) (hp : p.val = a.val * B + b.val) :
    shapeCast ⟨2, ![2048, N]⟩
        (mulf (F := Ideal)
          (broadcastInDim ⟨3, ![2048, A, B]⟩ ![0, 1, 2] h3 (broadcastInDim ⟨3, ![2048, A, 1]⟩ ![0, 1] h1 u))
          (broadcastInDim ⟨3, ![2048, A, B]⟩ ![0, 1, 2] h4 (broadcastInDim ⟨3, ![2048, 1, B]⟩ ![0, 2] h2 v)))
        hc (ix2 c p)
      = u (ix2 c a) * v (ix2 c b) := by
  refine (shapeCast_apply _ hc (ix2 c p) (ix3 c a b) ?_).trans ?_
  · rw [Shape.rowMajor_val_three, Shape.rowMajor_val_two]
    show (c.val * A + a.val) * B + b.val = c.val * N + p.val
    rw [hp, hN]
    ring
  · show broadcastInDim _ _ h3 _ (ix3 c a b) * broadcastInDim _ _ h4 _ (ix3 c a b) = _
    congr 1
    · refine (broadcastInDim_apply _ h3 _ (ix3 c a b) (ix3 c a ⟨0, Nat.one_pos⟩) (fun d => match d with
        | ⟨0, _⟩ => by show c.val = if (2048 : Nat) = 1 then 0 else c.val; rw [if_neg (by decide)]
        | ⟨1, _⟩ => by show a.val = if A = 1 then 0 else a.val; rw [if_neg hA]
        | ⟨2, _⟩ => by show 0 = if (1 : Nat) = 1 then 0 else b.val; rw [if_pos rfl])).trans ?_
      exact broadcastInDim_apply _ h1 u _ (ix2 c a) (fun d => match d with
        | ⟨0, _⟩ => by show c.val = if (2048 : Nat) = 1 then 0 else c.val; rw [if_neg (by decide)]
        | ⟨1, _⟩ => by show a.val = if A = 1 then 0 else a.val; rw [if_neg hA])
    · refine (broadcastInDim_apply _ h4 _ (ix3 c a b) (ix3 c ⟨0, Nat.one_pos⟩ b) (fun d => match d with
        | ⟨0, _⟩ => by show c.val = if (2048 : Nat) = 1 then 0 else c.val; rw [if_neg (by decide)]
        | ⟨1, _⟩ => by show 0 = if (1 : Nat) = 1 then 0 else a.val; rw [if_pos rfl]
        | ⟨2, _⟩ => by show b.val = if B = 1 then 0 else b.val; rw [if_neg hB])).trans ?_
      exact broadcastInDim_apply _ h2 v _ (ix2 c b) (fun d => match d with
        | ⟨0, _⟩ => by show c.val = if (2048 : Nat) = 1 then 0 else c.val; rw [if_neg (by decide)]
        | ⟨1, _⟩ => by show b.val = if B = 1 then 0 else b.val; rw [if_neg hB])

/-- A [32, 256] block given a new last axis and another given a new middle axis, both broadcast to [32, 256, 256] and
    multiplied: entry `(r, p, q)` is `x[r, p] * y[r, q]`. -/
theorem bcast_outer (x y : FVec Ideal ⟨2, ![32, 256]⟩ .f32)
    (hid : (⟨2, ![32, 256]⟩ : Shape).ShapeCasts ⟨2, ![32, 256]⟩)
    (hc1 : (⟨2, ![32, 256]⟩ : Shape).ShapeCasts ⟨3, ![32, 256, 1]⟩)
    (hc2 : (⟨2, ![32, 256]⟩ : Shape).ShapeCasts ⟨3, ![32, 1, 256]⟩)
    (hb1 : (⟨3, ![32, 256, 1]⟩ : Shape).Broadcasts ⟨3, ![32, 256, 256]⟩)
    (hb2 : (⟨3, ![32, 1, 256]⟩ : Shape).Broadcasts ⟨3, ![32, 256, 256]⟩)
    (r : Fin 32) (p q : Fin 256) :
    mulf (F := Ideal)
        (broadcastTo ⟨3, ![32, 256, 256]⟩ (shapeCast ⟨3, ![32, 256, 1]⟩ (shapeCast ⟨2, ![32, 256]⟩ x hid) hc1) hb1)
        (broadcastTo ⟨3, ![32, 256, 256]⟩ (shapeCast ⟨3, ![32, 1, 256]⟩ (shapeCast ⟨2, ![32, 256]⟩ y hid) hc2) hb2)
        (ix3 r p q)
      = x (ix2 r p) * y (ix2 r q) := by
  rw [shapeCast_self, shapeCast_self]
  show broadcastTo _ _ hb1 (ix3 r p q) * broadcastTo _ _ hb2 (ix3 r p q) = _
  congr 1
  · refine (broadcastTo_apply _ hb1 (ix3 r p q) (ix3 r p ⟨0, Nat.one_pos⟩) (fun d => match d with
      | ⟨0, _⟩ => by show r.val = if (32 : Nat) = 1 then 0 else r.val; rw [if_neg (by decide)]
      | ⟨1, _⟩ => by show p.val = if (256 : Nat) = 1 then 0 else p.val; rw [if_neg (by decide)]
      | ⟨2, _⟩ => by show 0 = if (1 : Nat) = 1 then 0 else q.val; rw [if_pos rfl])).trans ?_
    refine shapeCast_apply x hc1 _ (ix2 r p) ?_
    rw [Shape.rowMajor_val_three, Shape.rowMajor_val_two]
    show r.val * 256 + p.val = (r.val * 256 + p.val) * 1 + 0
    omega
  · refine (broadcastTo_apply _ hb2 (ix3 r p q) (ix3 r ⟨0, Nat.one_pos⟩ q) (fun d => match d with
      | ⟨0, _⟩ => by show r.val = if (32 : Nat) = 1 then 0 else r.val; rw [if_neg (by decide)]
      | ⟨1, _⟩ => by show 0 = if (1 : Nat) = 1 then 0 else p.val; rw [if_pos rfl]
      | ⟨2, _⟩ => by show q.val = if (256 : Nat) = 1 then 0 else q.val; rw [if_neg (by decide)])).trans ?_
    refine shapeCast_apply y hc2 _ (ix2 r q) ?_
    rw [Shape.rowMajor_val_three, Shape.rowMajor_val_two]
    show r.val * 256 + q.val = (r.val * 1 + 0) * 256 + q.val
    omega

/-- A [2048, 256, 256] array viewed as [2048, 16, 16, 16, 16]: entry `(c, l0, l1, l2, l3)` is the entry
    `(c, l0 * 16 + l1, l2 * 16 + l3)`. -/
theorem unflatten {α : Type} (A : (⟨3, ![2048, 256, 256]⟩ : Shape).Idx → α)
    (h : (⟨3, ![2048, 256, 256]⟩ : Shape).ShapeCasts ⟨5, ![2048, 16, 16, 16, 16]⟩)
    (c : Fin 2048) (l0 l1 l2 l3 : Fin 16) (p q : Fin 256)
    (hp : p.val = l0.val * 16 + l1.val) (hq : q.val = l2.val * 16 + l3.val) :
    shapeCast ⟨5, ![2048, 16, 16, 16, 16]⟩ A h (ix5 c l0 l1 l2 l3) = A (ix3 c p q) := by
  refine shapeCast_apply A h _ (ix3 c p q) ?_
  rw [Shape.rowMajor_val_three, Shape.rowMajor_val_five]
  show (c.val * 256 + p.val) * 256 + q.val = (((c.val * 16 + l0.val) * 16 + l1.val) * 16 + l2.val) * 16 + l3.val
  omega

/-- A [2048, 65536] array viewed as [2048, 16, 16, 16, 16]: entry `(c, l0, l1, l2, l3)` is the entry
    `(c, ((l0 * 16 + l1) * 16 + l2) * 16 + l3)`. -/
theorem unflatten_flat {α : Type} (A : (⟨2, ![2048, 65536]⟩ : Shape).Idx → α)
    (h : (⟨2, ![2048, 65536]⟩ : Shape).ShapeCasts ⟨5, ![2048, 16, 16, 16, 16]⟩)
    (c : Fin 2048) (l0 l1 l2 l3 : Fin 16) (r : Fin 65536)
    (hr : r.val = ((l0.val * 16 + l1.val) * 16 + l2.val) * 16 + l3.val) :
    shapeCast ⟨5, ![2048, 16, 16, 16, 16]⟩ A h (ix5 c l0 l1 l2 l3) = A (ix2 c r) := by
  refine shapeCast_apply A h _ (ix2 c r) ?_
  rw [Shape.rowMajor_val_two, Shape.rowMajor_val_five]
  show c.val * 65536 + r.val = (((c.val * 16 + l0.val) * 16 + l1.val) * 16 + l2.val) * 16 + l3.val
  omega

end Cert.OuterLayout

end
-- ==== Proof.Fourfold.lean ====
/-
  The result both programs compute, as one function of the two argument arrays.

  Write `tb = tensor + bias`, an array of shape [2048, 4, 16]: for each channel `c` four vectors `tb[c, 0, ·] … tb[c, 3, ·]` of
  length 16. The result, of shape [2048, 16, 16, 16, 16], is their four-fold outer product:
      result[c, l0, l1, l2, l3] = tb[c, 0, l0] * tb[c, 1, l1] * tb[c, 2, l2] * tb[c, 3, l3]
  over the extended reals. One program multiplies the factors in from the left, one at a time; the other first forms the
  products of the first two and of the last two rows and then multiplies those. The two groupings agree because the
  multiplication of extended reals is associative (`fourfold_pairs`) — at infinite entries too, so nothing here asks the
  inputs to be finite.
-/
import Idealize.ShloMosaic.PureOps.Ideal
import Idealize.ShloMosaic.Lib.ValueIdx

noncomputable section

namespace Cert.Fourfold

open Idealize.ShloMosaic Idealize.ShloMosaic.ValueIdx

/-- Entry `(c, n, l)` of `tensor + bias`. -/
def tb (x0 x1 : FVec Ideal ⟨3, ![2048, 4, 16]⟩ .f32) (c : Fin 2048) (n : Fin 4) (l : Fin 16) : EReal :=
  x0 (ix3 c n l) + x1 (ix3 c n l)

/-- The four-fold outer product of the rows of `tensor + bias`, the factors multiplied in from the left. -/
def fourfold (x0 x1 : FVec Ideal ⟨3, ![2048, 4, 16]⟩ .f32) : FVec Ideal ⟨5, ![2048, 16, 16, 16, 16]⟩ .f32 := fun i =>
  tb x0 x1 (i 0) 0 (i 1) * tb x0 x1 (i 0) 1 (i 2) * tb x0 x1 (i 0) 2 (i 3) * tb x0 x1 (i 0) 3 (i 4)

/-- The same entry with the first two and the last two factors multiplied first: associativity of the product. -/
theorem fourfold_pairs (x0 x1 : FVec Ideal ⟨3, ![2048, 4, 16]⟩ .f32) (c : Fin 2048) (l0 l1 l2 l3 : Fin 16) :
    fourfold x0 x1 (ix5 c l0 l1 l2 l3)
      = (tb x0 x1 c 0 l0 * tb x0 x1 c 1 l1) * (tb x0 x1 c 2 l2 * tb x0 x1 c 3 l3) := by
  show tb x0 x1 c 0 l0 * tb x0 x1 c 1 l1 * tb x0 x1 c 2 l2 * tb x0 x1 c 3 l3 = _
  rw [mul_assoc (tb x0 x1 c 0 l0 * tb x0 x1 c 1 l1)]

end Cert.Fourfold

end
-- ==== Proof.RegionInputs.lean ====
/-
  What the kernel's region is given, and what its body computes, one element at a time.

  Before the region the host forms `tb = tensor + bias` and two [2048, 256] arrays: the flattened outer product of rows 0
  and 1 of `tb` (the region's first operand) and that of rows 2 and 3 (its second). So position `l0 * 16 + l1` of channel
  `ch` of the first holds `tb[ch,0,l0] * tb[ch,1,l1]`, and position `l2 * 16 + l3` of the second holds
  `tb[ch,2,l2] * tb[ch,3,l3]`. The body, on a block of 32 channels, multiplies every entry of the first block's row with
  every entry of the second block's row: its one stored value at `(r, p, q)` is `x[r, p] * y[r, q]`.
-/
import proofs.«155256_j49735721287938_2_alg».proof.Proof.Gen.KernelIdeal.Frame
import proofs.«155256_j49735721287938_2_alg».proof.Proof.OuterLayout
import proofs.«155256_j49735721287938_2_alg».proof.Proof.Fourfold
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.OuterLayout Cert.Fourfold

variable (m : (ℓ : Loc nD τ sig) → Buf (Elt Ideal) ℓ)

/-- The first argument array (`tensor`) as launched on core `c`. -/
abbrev tensor (c : Dev nD) : FVec Ideal S2048x4x16 .f32 := m ((c : Thread nD τ).loc main_arg0)
/-- The second argument array (`bias`) as launched on core `c`. -/
abbrev bias (c : Dev nD) : FVec Ideal S2048x4x16 .f32 := m ((c : Thread nD τ).loc main_arg1)

/-- Rows `n1` and `n2` of a [2048, 4, 16] array: their outer product, flattened to [2048, 256]. -/
def pairOf (y : FVec Ideal S2048x4x16 .f32) (n1 n2 : Nat) (hs1 : S2048x4x16.Slices ![0, n1, 0] S2048x1x16)
    (hs2 : S2048x4x16.Slices ![0, n2, 0] S2048x1x16) : FVec Ideal S2048x256 .f32 :=
  shapeCast S2048x256
    (mulf (F := Ideal)
      (broadcastInDim S2048x16x16 ![0, 1, 2] bcast_S2048x16x1_S2048x16x16_0_1_2
        (broadcastInDim S2048x16x1 ![0, 1] bcast_S2048x16_S2048x16x1_0_1
          (shapeCast S2048x16 (extractStridedSlice S2048x1x16 ![0, n1, 0] y hs1) shapeCasts_S2048x1x16_S2048x16)))
      (broadcastInDim S2048x16x16 ![0, 1, 2] bcast_S2048x1x16_S2048x16x16_0_1_2
        (broadcastInDim S2048x1x16 ![0, 2] bcast_S2048x16_S2048x1x16_0_2
          (shapeCast S2048x16 (extractStridedSlice S2048x1x16 ![0, n2, 0] y hs2) shapeCasts_S2048x1x16_S2048x16))))
    shapeCasts_S2048x16x16_S2048x256

/-- Its position `l0 * 16 + l1` of channel `ch` is the product of the two rows' entries `l0` and `l1`. -/
theorem pairOf_apply (y : FVec Ideal S2048x4x16 .f32) (n1 n2 : Nat) (hn1 : n1 < 4) (hn2 : n2 < 4)
    (hs1 : S2048x4x16.Slices ![0, n1, 0] S2048x1x16) (hs2 : S2048x4x16.Slices ![0, n2, 0] S2048x1x16)
    (ch : Fin 2048) (l0 l1 : Fin 16) (p : Fin 256) (hp : p.val = l0.val * 16 + l1.val) :
    pairOf y n1 n2 hs1 hs2 (ix2 ch p) = y (ix3 ch ⟨n1, hn1⟩ l0) * y (ix3 ch ⟨n2, hn2⟩ l1) := by
  unfold pairOf
  refine (outer_pair (by decide) (by decide) (by decide) _ _ bcast_S2048x16_S2048x16x1_0_1 bcast_S2048x16_S2048x1x16_0_2
    bcast_S2048x16x1_S2048x16x16_0_1_2 bcast_S2048x1x16_S2048x16x16_0_1_2 shapeCasts_S2048x16x16_S2048x256 ch l0 l1 p hp).trans ?_
  exact congrArg₂ (· * ·) (slice_row y n1 hn1 hs1 shapeCasts_S2048x1x16_S2048x16 ch l0)
    (slice_row y n2 hn2 hs2 shapeCasts_S2048x1x16_S2048x16 ch l1)

/-- The region's first operand, as the host lines before it leave it: rows 0 and 1 of `tensor + bias` paired. -/
theorem first_operand (c : Dev nD) :
    (V m c main_v14 : S2048x256.Idx → EReal)
      = pairOf (addf (F := Ideal) (tensor m c) (bias m c)) 0 1 slices_S2048x4x16_S2048x1x16_0_0_0 slices_S2048x4x16_S2048x1x16_0_1_0 := by
  show StableHlo.after hostOps0 (fun b => m (c, b)) (Proc.devRef .tc main_v14) = _
  after_results
  rfl

/-- The region's second operand: rows 2 and 3 of `tensor + bias` paired. -/
theorem second_operand (c : Dev nD) :
    (V m c main_v20 : S2048x256.Idx → EReal)
      = pairOf (addf (F := Ideal) (tensor m c) (bias m c)) 2 3 slices_S2048x4x16_S2048x1x16_0_2_0 slices_S2048x4x16_S2048x1x16_0_3_0 := by
  show StableHlo.after hostOps0 (fun b => m (c, b)) (Proc.devRef .tc main_v20) = _
  after_results
  rfl

/-- The first operand at position `l0 * 16 + l1` of channel `ch`. -/
theorem first_operand_apply (c : Dev nD) (ch : Fin 2048) (l0 l1 : Fin 16) (p : Fin 256) (hp : p.val = l0.val * 16 + l1.val) :
    (V m c main_v14 : S2048x256.Idx → EReal) (ix2 ch p)
      = tb (tensor m c) (bias m c) ch 0 l0 * tb (tensor m c) (bias m c) ch 1 l1 := by
  rw [first_operand]
  exact pairOf_apply _ 0 1 (by decide) (by decide) _ _ ch l0 l1 p hp

/-- The second operand at position `l2 * 16 + l3` of channel `ch`. -/
theorem second_operand_apply (c : Dev nD) (ch : Fin 2048) (l2 l3 : Fin 16) (q : Fin 256) (hq : q.val = l2.val * 16 + l3.val) :
    (V m c main_v20 : S2048x256.Idx → EReal) (ix2 ch q)
      = tb (tensor m c) (bias m c) ch 2 l2 * tb (tensor m c) (bias m c) ch 3 l3 := by
  rw [second_operand]
  exact pairOf_apply _ 2 3 (by decide) (by decide) _ _ ch l2 l3 q hq

/-- The body's one stored value at `(r, p, q)`: the first block's entry `(r, p)` times the second block's entry `(r, q)`. -/
theorem payload_apply (x y : Vec Ideal S32x256 .f32) (r : Fin 32) (p q : Fin 256) :
    k0_pay1 (F := Ideal) x y (ix3 r p q) = x (ix2 r p) * y (ix2 r q) := by
  unfold k0_pay1
  exact bcast_outer x y shapeCasts_S32x256_S32x256 shapeCasts_S32x256_S32x256x1 shapeCasts_S32x256_S32x1x256
    broadcasts_S32x256x1_S32x256x256 broadcasts_S32x1x256_S32x256x256 r p q

end Cert.KernelIdeal.Hand

end
-- ==== Proof.RegionOutput.lean ====
/-
  The region's result array after the run: every entry `(ch, p, q)` is the first operand's entry `(ch, p)` times the second
  operand's entry `(ch, q)`.

  The grid has 64 points; point `t` is handed channels `32 t … 32 t + 31` of both operands (all 256 positions) and writes
  back the same channels of the result (all 256 × 256 positions). What it writes is the body's stored value, entry
  `(r, p, q) ↦ x[r, p] * y[r, q]` of the two blocks, that is, the block of the one whole-array function `outerOf` at those
  channels. The 64 blocks tile the channel axis, so the array ends holding `outerOf` of the two operands everywhere.
-/
import proofs.«155256_j49735721287938_2_alg».proof.Proof.RegionInputs
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx Cert.OuterLayout Cert.Fourfold
open Idealize.ShloMosaic.Pipeline (Dat)

variable (m : (ℓ : Loc nD τ sig) → Buf (Elt Ideal) ℓ)

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- Channel by channel, every entry of one [2048, 256] array times every entry of another. -/
def outerOf (A B : FVec Ideal S2048x256 .f32) : FVec Ideal S2048x256x256 .f32 :=
  fun i => A (ix2 (i 0) (i 1)) * B (ix2 (i 0) (i 2))

/-- The block index maps over the grid: at point `t` every window is at block `t` of the channel axis and at block 0 of
    the others. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- One entry of what a point stores: if the two blocks `x`, `y` are channels `32 T …` of `A` and `B`, the stored value at
    `j` is `outerOf A B` at the index `32 T` channels further on. -/
theorem block_entry (A B : FVec Ideal S2048x256 .f32) (x y : Vec Ideal S32x256 .f32) (T : Nat)
    (hx : ∀ (r : Fin 32) (p : Fin 256) (k : S2048x256.Idx), (k 0).val = T * 32 + r.val → (k 1).val = p.val → x (ix2 r p) = A k)
    (hy : ∀ (r : Fin 32) (p : Fin 256) (k : S2048x256.Idx), (k 0).val = T * 32 + r.val → (k 1).val = p.val → y (ix2 r p) = B k)
    (j : S32x256x256.Idx) (i : S2048x256x256.Idx)
    (h0 : (i 0).val = T * 32 + (j 0).val) (h1 : (i 1).val = (j 1).val) (h2 : (i 2).val = (j 2).val) :
    k0_pay1 (F := Ideal) x y j = outerOf A B i := by
  obtain ⟨r, p, q, rfl⟩ : ∃ (r : Fin 32) (p q : Fin 256), j = ix3 r p q := ⟨j 0, j 1, j 2, eq_ix3 j⟩
  rw [payload_apply]
  exact congrArg₂ (· * ·) (hx r p (ix2 (i 0) (i 1)) h0 h1) (hy r q (ix2 (i 0) (i 2)) h0 h2)

/-- WHAT POINT `t` WRITES BACK is block `t` of `outerOf` of the two operands as the region finds them. -/
theorem flushed_eq (c : Dev nD) (t : Fin cfg0.N) :
    (dats m 0 c).flushed 2 t
      = ((cfg0.win 2).blk t).view.read (Elt Ideal) (outerOf (V m c main_v14) (V m c main_v20)) := by
  show (cfg0.win 2).cut (grid0.coords t) ((dats m 0 c).after 2 t) = _
  rw [after0_2]
  unfold out0_2
  rw [View.canon_unit_zero zero_offsets3]
  simp only [View.ld_unit_zero (S := S32x256) zero_offsets2]
  obtain ⟨e0, e1, e2, e3, e4, e5, e6⟩ := block_indices t
  funext j
  show k0_pay1 (F := Ideal) (iblk m c 0 t) (iblk m c 1 t) j
    = outerOf (V m c main_v14) (V m c main_v20) (((cfg0.win 2).blk t).view.emb j)
  refine block_entry (V m c main_v14) (V m c main_v20) (iblk m c 0 t) (iblk m c 1 t) t.val ?_ ?_ j _ ?_ ?_ ?_
  · intro r p k hk0 hk1
    show V m c main_v14 (((cfg0.win 0).blk t).view.emb (ix2 r p)) = V m c main_v14 k
    congr 1
    funext a
    apply Fin.ext
    match a with
    | ⟨0, _⟩ => show win0_0.index t (0 : Fin 2) * 32 + 1 * r.val = (k 0).val; omega
    | ⟨1, _⟩ => show win0_0.index t (1 : Fin 2) * 256 + 1 * p.val = (k 1).val; omega
  · intro r p k hk0 hk1
    show V m c main_v20 (((cfg0.win 1).blk t).view.emb (ix2 r p)) = V m c main_v20 k
    congr 1
    funext a
    apply Fin.ext
    match a with
    | ⟨0, _⟩ => show win0_1.index t (0 : Fin 2) * 32 + 1 * r.val = (k 0).val; omega
    | ⟨1, _⟩ => show win0_1.index t (1 : Fin 2) * 256 + 1 * p.val = (k 1).val; omega
  · show win0_2.index t (0 : Fin 3) * 32 + 1 * (j 0).val = t.val * 32 + (j 0).val; omega
  · show win0_2.index t (1 : Fin 3) * 256 + 1 * (j 1).val = (j 1).val; omega
  · show win0_2.index t (2 : Fin 3) * 256 + 1 * (j 2).val = (j 2).val; omega

/-- An index of the result array is in point `t`'s block iff each coordinate is in the block's range on its axis. -/
theorem mem_blk (t : Fin cfg0.N) (i : S2048x256x256.Idx) :
    i ∈ ((cfg0.win 2).blk t).view.set ↔ ∀ a : Fin 3, win0_2.index t a * S32x256x256.size a ≤ (i a).val
      ∧ (i a).val < win0_2.index t a * S32x256x256.size a + S32x256x256.size a := by
  show i ∈ ((View.whole main_v21).slice (win0_2.rect t)).set ↔ _
  rw [View.set_slice_whole, Rect.mem_set_unit]
  exact Iff.rfl

/-- Every index of the result array is in the block of the point its channel falls to: point `ch / 32`. -/
theorem covered (i : S2048x256x256.Idx) :
    ∃ t : Fin cfg0.N, (cfg0.win 2).flush t = true ∧ i ∈ ((cfg0.win 2).blk t).view.set := by
  have hi0 : (i 0).val < 2048 := (i 0).isLt
  have hi1 : (i 1).val < 256 := (i 1).isLt
  have hi2 : (i 2).val < 256 := (i 2).isLt
  have hN : cfg0.N = 64 := N_0
  obtain ⟨t, ht⟩ : ∃ t : Fin cfg0.N, t.val = (i 0).val / 32 := ⟨⟨(i 0).val / 32, by rw [hN]; omega⟩, rfl⟩
  obtain ⟨e0, e1, e2, e3, e4, e5, e6⟩ := block_indices t
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- THE RESULT ARRAY after the region: `outerOf` of the two operands. -/
theorem region_result (c : Dev nD) :
    (dats m 0 c).arrAt 2 cfg0.N = outerOf (V m c main_v14) (V m c main_v20) :=
  (dats m 0 c).arrAt_eq_of_cover 2 (outerOf (V m c main_v14) (V m c main_v20)) (fun t _ => flushed_eq m c t) covered

end Cert.KernelIdeal.Hand

end
-- ==== Proof.KernelValue.lean ====
/-
  The kernel's result: after the region the host views its [2048, 256, 256] array as [2048, 16, 16, 16, 16], and that is
  the four-fold outer product `Cert.Fourfold.fourfold` of the rows of `tensor + bias`.

  The region's array holds at `(ch, p, q)` the first operand's position `p` times the second operand's position `q` of
  channel `ch`; the index `(ch, l0, l1, l2, l3)` of the result reads the position `p = l0 * 16 + l1`, `q = l2 * 16 + l3`,
  where the operands hold `tb[ch,0,l0] * tb[ch,1,l1]` and `tb[ch,2,l2] * tb[ch,3,l3]`. So the kernel multiplies the two
  pair products; regrouped by associativity this is the product of the four factors taken from the left.
-/
import proofs.«155256_j49735721287938_2_alg».proof.Proof.RegionOutput

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.OuterLayout Cert.Fourfold
open Idealize.ShloMosaic.Pipeline (Dat)

variable (m : (ℓ : Loc nD τ sig) → Buf (Elt Ideal) ℓ) (ρ : Dev nD → PrngReg)

/-- The result array on core `c`: the four-fold outer product of the rows of `tensor + bias` as launched there. -/
abbrev result (c : Dev nD) : Buf (Elt Ideal) ((c : Thread nD τ).loc main_v22) :=
  fourfold (tensor m c) (bias m c)

/-- The pair products regrouped: the region's array read at `(ch, l0 * 16 + l1, l2 * 16 + l3)` is the result's entry
    `(ch, l0, l1, l2, l3)`. -/
theorem outer_is_fourfold (c : Dev nD) (ch : Fin 2048) (l0 l1 l2 l3 : Fin 16) (p q : Fin 256)
    (hp : p.val = l0.val * 16 + l1.val) (hq : q.val = l2.val * 16 + l3.val) :
    outerOf (V m c main_v14) (V m c main_v20) (ix3 ch p q) = fourfold (tensor m c) (bias m c) (ix5 ch l0 l1 l2 l3) := by
  rw [fourfold_pairs]
  exact congrArg₂ (· * ·) (first_operand_apply m c ch l0 l1 p hp) (second_operand_apply m c ch l2 l3 q hq)

/-- What the host line after the region leaves in the result buffer. -/
theorem tail_result (c : Dev nD) :
    Pipeline.afterTail₀ cfgs (dats m) 0 (V0 m) [hostOps1] c main_v22 = result m c := by
  unfold Pipeline.afterTail₀
  show StableHlo.after hostOps1 _ (Proc.devRef .tc main_v22) = _
  after_results
  have hW : (Pipeline.withArrays (cfgs 0).spec c (V0 m c) (fun w => (dats m 0 c).arrAt w (cfgs 0).N)
        (Proc.tc.devRef main_v21) : S2048x256x256.Idx → EReal) = outerOf (V m c main_v14) (V m c main_v20) :=
    (Pipeline.withArrays_arr spec0 launch0.win.arr_inj c _ _ 2).trans (region_result m c)
  show shapeCast S2048x16x16x16x16 (Pipeline.withArrays (cfgs 0).spec c (V0 m c) (fun w => (dats m 0 c).arrAt w (cfgs 0).N)
      (Proc.tc.devRef main_v21)) shapeCasts_S2048x256x256_S2048x16x16x16x16 = fourfold (tensor m c) (bias m c)
  rw [hW]
  funext i
  obtain ⟨ch, l0, l1, l2, l3, rfl⟩ : ∃ (ch : Fin 2048) (l0 l1 l2 l3 : Fin 16), i = ix5 ch l0 l1 l2 l3 :=
    ⟨i 0, i 1, i 2, i 3, i 4, eq_ix5 i⟩
  have h0 := l0.isLt
  have h1 := l1.isLt
  have h2 := l2.isLt
  have h3 := l3.isLt
  obtain ⟨p, hp⟩ : ∃ p : Fin 256, p.val = l0.val * 16 + l1.val := ⟨⟨l0.val * 16 + l1.val, by omega⟩, rfl⟩
  obtain ⟨q, hq⟩ : ∃ q : Fin 256, q.val = l2.val * 16 + l3.val := ⟨⟨l2.val * 16 + l3.val, by omega⟩, rfl⟩
  exact (unflatten _ shapeCasts_S2048x256x256_S2048x16x16x16x16 ch l0 l1 l2 l3 p q hp hq).trans
    (outer_is_fourfold m c ch l0 l1 l2 l3 p q hp hq)

/-- THE RUN, READ: every weakly fair execution of the kernel's program terminates with the result buffer at `result` and
    the two argument arrays as launched. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v22 (Pipeline.mem_restRefs_of main_v22 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hand

end
-- ==== Proof.RefValue.lean ====
/-
  The reference's result array is the four-fold outer product `Cert.Fourfold.fourfold` of the rows of `tensor + bias`.

  The reference starts from row 0 and multiplies the next row in three times, flattening after each step: after the
  first step position `l0 * 16 + l1` of channel `c` holds `tb[c,0,l0] * tb[c,1,l1]`; after the second, position
  `(l0 * 16 + l1) * 16 + l2` holds that times `tb[c,2,l2]`; after the third, position `((l0 * 16 + l1) * 16 + l2) * 16 + l3`
  holds that times `tb[c,3,l3]`; and the last reshape puts this position at the index `(c, l0, l1, l2, l3)`. Each step is
  the pairing lemma of `Cert.OuterLayout` applied to the stage the generated module names.
-/
import proofs.«155256_j49735721287938_2_alg».proof.Proof.Gen.ReferenceIdeal.Read
import proofs.«155256_j49735721287938_2_alg».proof.Proof.OuterLayout
import proofs.«155256_j49735721287938_2_alg».proof.Proof.Fourfold

noncomputable section

namespace Cert.ReferenceIdeal.RefValue

open Cert.ReferenceIdeal Cert.ReferenceIdeal.Gen Cert.ReferenceIdeal.Read
open Idealize.ShloMosaic Idealize.ShloMosaic.ValueIdx Cert.OuterLayout Cert.Fourfold

variable (x0 x1 : FVec Ideal S2048x4x16 .f32)

/-- Row 0 of `tensor + bias`, as the reference slices and reshapes it. -/
theorem row0 (c : Fin 2048) (l : Fin 16) : val_main_v2 (F := Ideal) x0 x1 (ix2 c l) = tb x0 x1 c 0 l :=
  slice_row (addf (F := Ideal) x0 x1) 0 (by decide) slices_S2048x4x16_S2048x1x16_0_0_0 shapeCasts_S2048x1x16_S2048x16 c l
/-- Row 1. -/
theorem row1 (c : Fin 2048) (l : Fin 16) : val_main_v5 (F := Ideal) x0 x1 (ix2 c l) = tb x0 x1 c 1 l :=
  slice_row (addf (F := Ideal) x0 x1) 1 (by decide) slices_S2048x4x16_S2048x1x16_0_1_0 shapeCasts_S2048x1x16_S2048x16 c l
/-- Row 2. -/
theorem row2 (c : Fin 2048) (l : Fin 16) : val_main_v13 (F := Ideal) x0 x1 (ix2 c l) = tb x0 x1 c 2 l :=
  slice_row (addf (F := Ideal) x0 x1) 2 (by decide) slices_S2048x4x16_S2048x1x16_0_2_0 shapeCasts_S2048x1x16_S2048x16 c l
/-- Row 3. -/
theorem row3 (c : Fin 2048) (l : Fin 16) : val_main_v21 (F := Ideal) x0 x1 (ix2 c l) = tb x0 x1 c 3 l :=
  slice_row (addf (F := Ideal) x0 x1) 3 (by decide) slices_S2048x4x16_S2048x1x16_0_3_0 shapeCasts_S2048x1x16_S2048x16 c l

/-- The reference's result at an index is the product of the four rows' entries, multiplied in from the left. -/
theorem result_apply (c : Fin 2048) (l0 l1 l2 l3 : Fin 16) :
    val_main_v27 (F := Ideal) x0 x1 (ix5 c l0 l1 l2 l3) = fourfold x0 x1 (ix5 c l0 l1 l2 l3) := by
  have h0 := l0.isLt
  have h1 := l1.isLt
  have h2 := l2.isLt
  have h3 := l3.isLt
  obtain ⟨p, hp⟩ : ∃ p : Fin 256, p.val = l0.val * 16 + l1.val := ⟨⟨l0.val * 16 + l1.val, by omega⟩, rfl⟩
  obtain ⟨q, hq⟩ : ∃ q : Fin 4096, q.val = p.val * 16 + l2.val := ⟨⟨p.val * 16 + l2.val, by have := p.isLt; omega⟩, rfl⟩
  obtain ⟨r, hr⟩ : ∃ r : Fin 65536, r.val = q.val * 16 + l3.val := ⟨⟨q.val * 16 + l3.val, by have := q.isLt; omega⟩, rfl⟩
  have e27 : val_main_v27 (F := Ideal) x0 x1 (ix5 c l0 l1 l2 l3) = val_main_v26 (F := Ideal) x0 x1 (ix2 c r) :=
    unflatten_flat (val_main_v26 (F := Ideal) x0 x1) shapeCasts_S2048x65536_S2048x16x16x16x16 c l0 l1 l2 l3 r (by omega)
  have e26 : val_main_v26 (F := Ideal) x0 x1 (ix2 c r)
      = val_main_v18 (F := Ideal) x0 x1 (ix2 c q) * val_main_v21 (F := Ideal) x0 x1 (ix2 c l3) :=
    outer_pair (by decide) (by decide) (by decide) (val_main_v18 (F := Ideal) x0 x1) (val_main_v21 (F := Ideal) x0 x1)
      bcast_S2048x4096_S2048x4096x1_0_1 bcast_S2048x16_S2048x1x16_0_2 bcast_S2048x4096x1_S2048x4096x16_0_1_2
      bcast_S2048x1x16_S2048x4096x16_0_1_2 shapeCasts_S2048x4096x16_S2048x65536 c q l3 r hr
  have e18 : val_main_v18 (F := Ideal) x0 x1 (ix2 c q)
      = val_main_v10 (F := Ideal) x0 x1 (ix2 c p) * val_main_v13 (F := Ideal) x0 x1 (ix2 c l2) :=
    outer_pair (by decide) (by decide) (by decide) (val_main_v10 (F := Ideal) x0 x1) (val_main_v13 (F := Ideal) x0 x1)
      bcast_S2048x256_S2048x256x1_0_1 bcast_S2048x16_S2048x1x16_0_2 bcast_S2048x256x1_S2048x256x16_0_1_2
      bcast_S2048x1x16_S2048x256x16_0_1_2 shapeCasts_S2048x256x16_S2048x4096 c p l2 q hq
  have e10 : val_main_v10 (F := Ideal) x0 x1 (ix2 c p)
      = val_main_v2 (F := Ideal) x0 x1 (ix2 c l0) * val_main_v5 (F := Ideal) x0 x1 (ix2 c l1) :=
    outer_pair (by decide) (by decide) (by decide) (val_main_v2 (F := Ideal) x0 x1) (val_main_v5 (F := Ideal) x0 x1)
      bcast_S2048x16_S2048x16x1_0_1 bcast_S2048x16_S2048x1x16_0_2 bcast_S2048x16x1_S2048x16x16_0_1_2
      bcast_S2048x1x16_S2048x16x16_0_1_2 shapeCasts_S2048x16x16_S2048x256 c l0 l1 p hp
  rw [e27, e26, e18, e10, row0, row1, row2, row3]
  rfl

/-- The reference's result array IS the four-fold outer product. -/
theorem result_eq : val_main_v27 (F := Ideal) x0 x1 = fourfold x0 x1 := by
  funext i
  rw [eq_ix5 i]
  exact result_apply x0 x1 (i 0) (i 1) (i 2) (i 3) (i 4)

end Cert.ReferenceIdeal.RefValue

end
-- ==== Proof.lean ====
/-
  The proof of `Cert.Claim`: the kernel and its reference compute the same four-fold outer product.

  With `tb = tensor + bias` of shape [2048, 4, 16], both programs produce the array of shape [2048, 16, 16, 16, 16] whose
  entry `(c, l0, l1, l2, l3)` is the product `tb[c,0,l0] * tb[c,1,l1] * tb[c,2,l2] * tb[c,3,l3]`, read over the extended
  reals. The reference multiplies the rows in one after another from the left (`Cert.ReferenceIdeal.RefValue`). The kernel
  forms on the host the products of rows 0, 1 and of rows 2, 3, each flattened to 256 positions per channel, lets its
  region multiply every position of the first with every position of the second, 32 channels per grid point, and views
  the [2048, 256, 256] result as [2048, 16, 16, 16, 16] (`Cert.KernelIdeal.Hand`). The two agree entry by entry because
  multiplication of extended reals is associative (`Cert.Fourfold.fourfold_pairs`); no entry need be finite for that, so the
  precondition is not used. The three frames are the generated ones (the reference's is its generated run with the
  result dropped), and the idealization rewrote no operation, so that conjunct is `True`.
-/
import proofs.«155256_j49735721287938_2_alg».proof.Defs
import proofs.«155256_j49735721287938_2_alg».proof.Proof.Gen.Kernel
import proofs.«155256_j49735721287938_2_alg».proof.Proof.Gen.Kernel.Skeleton
import proofs.«155256_j49735721287938_2_alg».proof.Proof.Gen.Kernel.Launch
import proofs.«155256_j49735721287938_2_alg».proof.Proof.Gen.Kernel.Points
import proofs.«155256_j49735721287938_2_alg».proof.Proof.Gen.Kernel.Frame
import proofs.«155256_j49735721287938_2_alg».proof.Proof.Gen.KernelIdeal
import proofs.«155256_j49735721287938_2_alg».proof.Proof.Gen.KernelIdeal.Skeleton
import proofs.«155256_j49735721287938_2_alg».proof.Proof.Gen.KernelIdeal.Launch
import proofs.«155256_j49735721287938_2_alg».proof.Proof.Gen.KernelIdeal.Points
import proofs.«155256_j49735721287938_2_alg».proof.Proof.Gen.KernelIdeal.Frame
import proofs.«155256_j49735721287938_2_alg».proof.Proof.Gen.ReferenceIdeal
import proofs.«155256_j49735721287938_2_alg».proof.Proof.Gen.Pre_finite_inputs
import proofs.«155256_j49735721287938_2_alg».proof.Proof.Gen.ReferenceIdeal.Run
import proofs.«155256_j49735721287938_2_alg».proof.Proof.Gen.ReferenceIdeal.Read
import proofs.«155256_j49735721287938_2_alg».proof.Proof.KernelValue
import proofs.«155256_j49735721287938_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- And the idealized reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on `tensor` and `bias`, both idealized programs end with the four-fold outer product of the
    rows of `tensor + bias` in their result buffers: the kernel by its run read back, the reference by its generated run
    and the reading of its last stage. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v27_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
